-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S16x192 : Shape := ⟨2, ![16, 192]⟩
abbrev S16 : Shape := ⟨1, ![16]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S16x192 : S_.BroadcastsInDim S16x192 (![] : Fin 0 → Fin S16x192.rank)
  reducesTo_S16x192_S_d0_1 : S16x192.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S64x3x512x512 .f32) (main_arg1 : FVec F S16x192 .f32) (main_arg2 : FVec F S16 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S16x192 .f32 := Host.absf main_arg1
  let main_cst_0 : FVec F S_ .f32 := constant S_ .f32 0x7F800000#32
  let main_v5 : FVec F S16x192 .f32 := broadcastInDim S16x192 ![] bcast_S_S16x192 main_cst_0
  let main_v6 : IVec S16x192 1 := cmpf .olt main_v4 main_v5
  let main_c_1 : IVec S_ 1 := constantI S_ 1 1#1
  let main_v7 : IVec S_ 1 := (fun x v => Host.reduce IntOp.andi x v reducesTo_S16x192_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S64x3x512x512 : Shape := ⟨4, ![64, 3, 512, 512]⟩
abbrev S16x192 : Shape := ⟨2, ![16, 192]⟩
abbrev S16 : Shape := ⟨1, ![16]⟩
abbrev S16x3x8x8 : Shape := ⟨4, ![16, 3, 8, 8]⟩
abbrev S64x4096x16 : Shape := ⟨3, ![64, 4096, 16]⟩
abbrev S1x3x512x512 : Shape := ⟨4, ![1, 3, 512, 512]⟩
abbrev S1x4096x16 : Shape := ⟨3, ![1, 4096, 16]⟩
abbrev S3x512x512 : Shape := ⟨3, ![3, 512, 512]⟩
abbrev S3x64x8x64x8 : Shape := ⟨5, ![3, 64, 8, 64, 8]⟩
abbrev S16x4096 : Shape := ⟨2, ![16, 4096]⟩
abbrev S3x64x1x64x1 : Shape := ⟨5, ![3, 64, 1, 64, 1]⟩
abbrev S3x64x64 : Shape := ⟨3, ![3, 64, 64]⟩
abbrev S3x4096 : Shape := ⟨2, ![3, 4096]⟩
abbrev S16x3x1x1 : Shape := ⟨4, ![16, 3, 1, 1]⟩
abbrev S16x3 : Shape := ⟨2, ![16, 3]⟩
abbrev S4096x16 : Shape := ⟨2, ![4096, 16]⟩
abbrev S1x16 : Shape := ⟨2, ![1, 16]⟩

abbrev nBuf : Space → Nat
  | .hbm => 5
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S16x192, .f32⟩
  | .hbm, ⟨2, _⟩ => ⟨S16, .f32⟩
  | .hbm, ⟨3, _⟩ => ⟨S16x3x8x8, .f32⟩
  | .hbm, ⟨4, _⟩ => ⟨S64x4096x16, .f32⟩
  | .local _ .vmem, ⟨0, _⟩ => ⟨S1x3x512x512, .f32⟩
  | .local _ .vmem, ⟨1, _⟩ => ⟨S1x3x512x512, .f32⟩
  | .local _ .vmem, ⟨2, _⟩ => ⟨S16x3x8x8, .f32⟩
  | .local _ .vmem, ⟨3, _⟩ => ⟨S16, .f32⟩
  | .local _ .vmem, ⟨4, _⟩ => ⟨S1x4096x16, .f32⟩
  | .local _ .vmem, ⟨5, _⟩ => ⟨S1x4096x16, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3x8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x192_S16x3x8x8 : S16x192.ShapeCasts S16x3x8x8
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  shapeCasts_S3x512x512_S3x64x8x64x8 : S3x512x512.ShapeCasts S3x64x8x64x8
  inb_S16x3x8x8_S16x3x8x8_0_0_0_0 : ∀ a, (![0, 0, 0, 0] : Fin 4 → Nat) a + S16x3x8x8.size a ≤ S16x3x8x8.size a
  h_S16x3x8x8 : 0 < S16x3x8x8.numel
  shapeCasts_S16x3x8x8_S16x3x8x8 : S16x3x8x8.ShapeCasts S16x3x8x8
  inb_S16_S16_0 : ∀ a, (![0] : Fin 1 → Nat) a + S16.size a ≤ S16.size a
  h_S16 : 0 < S16.numel
  slices_S3x64x8x64x8_o0_0_0_0_0_S3x64x1x64x1 : S3x64x8x64x8.Slices ![0, 0, 0, 0, 0] S3x64x1x64x1
  shapeCasts_S3x64x1x64x1_S3x64x64 : S3x64x1x64x1.ShapeCasts S3x64x64
  shapeCasts_S3x64x64_S3x4096 : S3x64x64.ShapeCasts S3x4096
  slices_S16x3x8x8_o0_0_0_0_S16x3x1x1 : S16x3x8x8.Slices ![0, 0, 0, 0] S16x3x1x1
  shapeCasts_S16x3x1x1_S16x3 : S16x3x1x1.ShapeCasts S16x3
  slices_S3x64x8x64x8_o0_0_0_0_1_S3x64x1x64x1 : S3x64x8x64x8.Slices ![0, 0, 0, 0, 1] S3x64x1x64x1
  slices_S16x3x8x8_o0_0_0_1_S16x3x1x1 : S16x3x8x8.Slices ![0, 0, 0, 1] S16x3x1x1
  slices_S3x64x8x64x8_o0_0_0_0_2_S3x64x1x64x1 : S3x64x8x64x8.Slices ![0, 0, 0, 0, 2] S3x64x1x64x1
  slices_S16x3x8x8_o0_0_0_2_S16x3x1x1 : S16x3x8x8.Slices ![0, 0, 0, 2] S16x3x1x1
  slices_S3x64x8x64x8_o0_0_0_0_3_S3x64x1x64x1 : S3x64x8x64x8.Slices ![0, 0, 0, 0, 3] S3x64x1x64x1
  slices_S16x3x8x8_o0_0_0_3_S16x3x1x1 : S16x3x8x8.Slices ![0, 0, 0, 3] S16x3x1x1
  slices_S3x64x8x64x8_o0_0_0_0_4_S3x64x1x64x1 : S3x64x8x64x8.Slices ![0, 0, 0, 0, 4] S3x64x1x64x1
  slices_S16x3x8x8_o0_0_0_4_S16x3x1x1 : S16x3x8x8.Slices ![0, 0, 0, 4] S16x3x1x1
  slices_S3x64x8x64x8_o0_0_0_0_5_S3x64x1x64x1 : S3x64x8x64x8.Slices ![0, 0, 0, 0, 5] S3x64x1x64x1
  slices_S16x3x8x8_o0_0_0_5_S16x3x1x1 : S16x3x8x8.Slices ![0, 0, 0, 5] S16x3x1x1
  slices_S3x64x8x64x8_o0_0_0_0_6_S3x64x1x64x1 : S3x64x8x64x8.Slices ![0, 0, 0, 0, 6] S3x64x1x64x1
  slices_S16x3x8x8_o0_0_0_6_S16x3x1x1 : S16x3x8x8.Slices ![0, 0, 0, 6] S16x3x1x1
  slices_S3x64x8x64x8_o0_0_0_0_7_S3x64x1x64x1 : S3x64x8x64x8.Slices ![0, 0, 0, 0, 7] S3x64x1x64x1
  slices_S16x3x8x8_o0_0_0_7_S16x3x1x1 : S16x3x8x8.Slices ![0, 0, 0, 7] S16x3x1x1
  slices_S3x64x8x64x8_o0_0_1_0_0_S3x64x1x64x1 : S3x64x8x64x8.Slices ![0, 0, 1, 0, 0] S3x64x1x64x1
  slices_S16x3x8x8_o0_0_1_0_S16x3x1x1 : S16x3x8x8.Slices ![0, 0, 1, 0] S16x3x1x1
  slices_S3x64x8x64x8_o0_0_1_0_1_S3x64x1x64x1 : S3x64x8x64x8.Slices ![0, 0, 1, 0, 1] S3x64x1x64x1
  slices_S16x3x8x8_o0_0_1_1_S16x3x1x1 : S16x3x8x8.Slices ![0, 0, 1, 1] S16x3x1x1
  slices_S3x64x8x64x8_o0_0_1_0_2_S3x64x1x64x1 : S3x64x8x64x8.Slices ![0, 0, 1, 0, 2] S3x64x1x64x1
  slices_S16x3x8x8_o0_0_1_2_S16x3x1x1 : S16x3x8x8.Slices ![0, 0, 1, 2] S16x3x1x1
  slices_S3x64x8x64x8_o0_0_1_0_3_S3x64x1x64x1 : S3x64x8x64x8.Slices ![0, 0, 1, 0, 3] S3x64x1x64x1
  slices_S16x3x8x8_o0_0_1_3_S16x3x1x1 : S16x3x8x8.Slices ![0, 0, 1, 3] S16x3x1x1
  slices_S3x64x8x64x8_o0_0_1_0_4_S3x64x1x64x1 : S3x64x8x64x8.Slices ![0, 0, 1, 0, 4] S3x64x1x64x1
  slices_S16x3x8x8_o0_0_1_4_S16x3x1x1 : S16x3x8x8.Slices ![0, 0, 1, 4] S16x3x1x1
  slices_S3x64x8x64x8_o0_0_1_0_5_S3x64x1x64x1 : S3x64x8x64x8.Slices ![0, 0, 1, 0, 5] S3x64x1x64x1
  slices_S16x3x8x8_o0_0_1_5_S16x3x1x1 : S16x3x8x8.Slices ![0, 0, 1, 5] S16x3x1x1
  slices_S3x64x8x64x8_o0_0_1_0_6_S3x64x1x64x1 : S3x64x8x64x8.Slices ![0, 0, 1, 0, 6] S3x64x1x64x1
  slices_S16x3x8x8_o0_0_1_6_S16x3x1x1 : S16x3x8x8.Slices ![0, 0, 1, 6] S16x3x1x1
  slices_S3x64x8x64x8_o0_0_1_0_7_S3x64x1x64x1 : S3x64x8x64x8.Slices ![0, 0, 1, 0, 7] S3x64x1x64x1
  slices_S16x3x8x8_o0_0_1_7_S16x3x1x1 : S16x3x8x8.Slices ![0, 0, 1, 7] S16x3x1x1
  slices_S3x64x8x64x8_o0_0_2_0_0_S3x64x1x64x1 : S3x64x8x64x8.Slices ![0, 0, 2, 0, 0] S3x64x1x64x1
  slices_S16x3x8x8_o0_0_2_0_S16x3x1x1 : S16x3x8x8.Slices ![0, 0, 2, 0] S16x3x1x1
  slices_S3x64x8x64x8_o0_0_2_0_1_S3x64x1x64x1 : S3x64x8x64x8.Slices ![0, 0, 2, 0, 1] S3x64x1x64x1
  slices_S16x3x8x8_o0_0_2_1_S16x3x1x1 : S16x3x8x8.Slices ![0, 0, 2, 1] S16x3x1x1
  slices_S3x64x8x64x8_o0_0_2_0_2_S3x64x1x64x1 : S3x64x8x64x8.Slices ![0, 0, 2, 0, 2] S3x64x1x64x1
  slices_S16x3x8x8_o0_0_2_2_S16x3x1x1 : S16x3x8x8.Slices ![0, 0, 2, 2] S16x3x1x1
  slices_S3x64x8x64x8_o0_0_2_0_3_S3x64x1x64x1 : S3x64x8x64x8.Slices ![0, 0, 2, 0, 3] S3x64x1x64x1
  slices_S16x3x8x8_o0_0_2_3_S16x3x1x1 : S16x3x8x8.Slices ![0, 0, 2, 3] S16x3x1x1
  slices_S3x64x8x64x8_o0_0_2_0_4_S3x64x1x64x1 : S3x64x8x64x8.Slices ![0, 0, 2, 0, 4] S3x64x1x64x1
  slices_S16x3x8x8_o0_0_2_4_S16x3x1x1 : S16x3x8x8.Slices ![0, 0, 2, 4] S16x3x1x1
  slices_S3x64x8x64x8_o0_0_2_0_5_S3x64x1x64x1 : S3x64x8x64x8.Slices ![0, 0, 2, 0, 5] S3x64x1x64x1
  slices_S16x3x8x8_o0_0_2_5_S16x3x1x1 : S16x3x8x8.Slices ![0, 0, 2, 5] S16x3x1x1
  slices_S3x64x8x64x8_o0_0_2_0_6_S3x64x1x64x1 : S3x64x8x64x8.Slices ![0, 0, 2, 0, 6] S3x64x1x64x1
  slices_S16x3x8x8_o0_0_2_6_S16x3x1x1 : S16x3x8x8.Slices ![0, 0, 2, 6] S16x3x1x1
  slices_S3x64x8x64x8_o0_0_2_0_7_S3x64x1x64x1 : S3x64x8x64x8.Slices ![0, 0, 2, 0, 7] S3x64x1x64x1
  slices_S16x3x8x8_o0_0_2_7_S16x3x1x1 : S16x3x8x8.Slices ![0, 0, 2, 7] S16x3x1x1
  slices_S3x64x8x64x8_o0_0_3_0_0_S3x64x1x64x1 : S3x64x8x64x8.Slices ![0, 0, 3, 0, 0] S3x64x1x64x1
  slices_S16x3x8x8_o0_0_3_0_S16x3x1x1 : S16x3x8x8.Slices ![0, 0, 3, 0] S16x3x1x1
  slices_S3x64x8x64x8_o0_0_3_0_1_S3x64x1x64x1 : S3x64x8x64x8.Slices ![0, 0, 3, 0, 1] S3x64x1x64x1
  slices_S16x3x8x8_o0_0_3_1_S16x3x1x1 : S16x3x8x8.Slices ![0, 0, 3, 1] S16x3x1x1
  slices_S3x64x8x64x8_o0_0_3_0_2_S3x64x1x64x1 : S3x64x8x64x8.Slices ![0, 0, 3, 0, 2] S3x64x1x64x1
  slices_S16x3x8x8_o0_0_3_2_S16x3x1x1 : S16x3x8x8.Slices ![0, 0, 3, 2] S16x3x1x1
  slices_S3x64x8x64x8_o0_0_3_0_3_S3x64x1x64x1 : S3x64x8x64x8.Slices ![0, 0, 3, 0, 3] S3x64x1x64x1
  slices_S16x3x8x8_o0_0_3_3_S16x3x1x1 : S16x3x8x8.Slices ![0, 0, 3, 3] S16x3x1x1
  slices_S3x64x8x64x8_o0_0_3_0_4_S3x64x1x64x1 : S3x64x8x64x8.Slices ![0, 0, 3, 0, 4] S3x64x1x64x1
  slices_S16x3x8x8_o0_0_3_4_S16x3x1x1 : S16x3x8x8.Slices ![0, 0, 3, 4] S16x3x1x1
  slices_S3x64x8x64x8_o0_0_3_0_5_S3x64x1x64x1 : S3x64x8x64x8.Slices ![0, 0, 3, 0, 5] S3x64x1x64x1
  slices_S16x3x8x8_o0_0_3_5_S16x3x1x1 : S16x3x8x8.Slices ![0, 0, 3, 5] S16x3x1x1
  slices_S3x64x8x64x8_o0_0_3_0_6_S3x64x1x64x1 : S3x64x8x64x8.Slices ![0, 0, 3, 0, 6] S3x64x1x64x1
  slices_S16x3x8x8_o0_0_3_6_S16x3x1x1 : S16x3x8x8.Slices ![0, 0, 3, 6] S16x3x1x1
  slices_S3x64x8x64x8_o0_0_3_0_7_S3x64x1x64x1 : S3x64x8x64x8.Slices ![0, 0, 3, 0, 7] S3x64x1x64x1
  slices_S16x3x8x8_o0_0_3_7_S16x3x1x1 : S16x3x8x8.Slices ![0, 0, 3, 7] S16x3x1x1
  slices_S3x64x8x64x8_o0_0_4_0_0_S3x64x1x64x1 : S3x64x8x64x8.Slices ![0, 0, 4, 0, 0] S3x64x1x64x1
  slices_S16x3x8x8_o0_0_4_0_S16x3x1x1 : S16x3x8x8.Slices ![0, 0, 4, 0] S16x3x1x1
  slices_S3x64x8x64x8_o0_0_4_0_1_S3x64x1x64x1 : S3x64x8x64x8.Slices ![0, 0, 4, 0, 1] S3x64x1x64x1
  slices_S16x3x8x8_o0_0_4_1_S16x3x1x1 : S16x3x8x8.Slices ![0, 0, 4, 1] S16x3x1x1
  slices_S3x64x8x64x8_o0_0_4_0_2_S3x64x1x64x1 : S3x64x8x64x8.Slices ![0, 0, 4, 0, 2] S3x64x1x64x1
  slices_S16x3x8x8_o0_0_4_2_S16x3x1x1 : S16x3x8x8.Slices ![0, 0, 4, 2] S16x3x1x1
  slices_S3x64x8x64x8_o0_0_4_0_3_S3x64x1x64x1 : S3x64x8x64x8.Slices ![0, 0, 4, 0, 3] S3x64x1x64x1
  slices_S16x3x8x8_o0_0_4_3_S16x3x1x1 : S16x3x8x8.Slices ![0, 0, 4, 3] S16x3x1x1
  slices_S3x64x8x64x8_o0_0_4_0_4_S3x64x1x64x1 : S3x64x8x64x8.Slices ![0, 0, 4, 0, 4] S3x64x1x64x1
  slices_S16x3x8x8_o0_0_4_4_S16x3x1x1 : S16x3x8x8.Slices ![0, 0, 4, 4] S16x3x1x1
  slices_S3x64x8x64x8_o0_0_4_0_5_S3x64x1x64x1 : S3x64x8x64x8.Slices ![0, 0, 4, 0, 5] S3x64x1x64x1
  slices_S16x3x8x8_o0_0_4_5_S16x3x1x1 : S16x3x8x8.Slices ![0, 0, 4, 5] S16x3x1x1
  slices_S3x64x8x64x8_o0_0_4_0_6_S3x64x1x64x1 : S3x64x8x64x8.Slices ![0, 0, 4, 0, 6] S3x64x1x64x1
  slices_S16x3x8x8_o0_0_4_6_S16x3x1x1 : S16x3x8x8.Slices ![0, 0, 4, 6] S16x3x1x1
  slices_S3x64x8x64x8_o0_0_4_0_7_S3x64x1x64x1 : S3x64x8x64x8.Slices ![0, 0, 4, 0, 7] S3x64x1x64x1
  slices_S16x3x8x8_o0_0_4_7_S16x3x1x1 : S16x3x8x8.Slices ![0, 0, 4, 7] S16x3x1x1
  slices_S3x64x8x64x8_o0_0_5_0_0_S3x64x1x64x1 : S3x64x8x64x8.Slices ![0, 0, 5, 0, 0] S3x64x1x64x1
  slices_S16x3x8x8_o0_0_5_0_S16x3x1x1 : S16x3x8x8.Slices ![0, 0, 5, 0] S16x3x1x1
  slices_S3x64x8x64x8_o0_0_5_0_1_S3x64x1x64x1 : S3x64x8x64x8.Slices ![0, 0, 5, 0, 1] S3x64x1x64x1
  slices_S16x3x8x8_o0_0_5_1_S16x3x1x1 : S16x3x8x8.Slices ![0, 0, 5, 1] S16x3x1x1
  slices_S3x64x8x64x8_o0_0_5_0_2_S3x64x1x64x1 : S3x64x8x64x8.Slices ![0, 0, 5, 0, 2] S3x64x1x64x1
  slices_S16x3x8x8_o0_0_5_2_S16x3x1x1 : S16x3x8x8.Slices ![0, 0, 5, 2] S16x3x1x1
  slices_S3x64x8x64x8_o0_0_5_0_3_S3x64x1x64x1 : S3x64x8x64x8.Slices ![0, 0, 5, 0, 3] S3x64x1x64x1
  slices_S16x3x8x8_o0_0_5_3_S16x3x1x1 : S16x3x8x8.Slices ![0, 0, 5, 3] S16x3x1x1
  slices_S3x64x8x64x8_o0_0_5_0_4_S3x64x1x64x1 : S3x64x8x64x8.Slices ![0, 0, 5, 0, 4] S3x64x1x64x1
  slices_S16x3x8x8_o0_0_5_4_S16x3x1x1 : S16x3x8x8.Slices ![0, 0, 5, 4] S16x3x1x1
  slices_S3x64x8x64x8_o0_0_5_0_5_S3x64x1x64x1 : S3x64x8x64x8.Slices ![0, 0, 5, 0, 5] S3x64x1x64x1
  slices_S16x3x8x8_o0_0_5_5_S16x3x1x1 : S16x3x8x8.Slices ![0, 0, 5, 5] S16x3x1x1
  slices_S3x64x8x64x8_o0_0_5_0_6_S3x64x1x64x1 : S3x64x8x64x8.Slices ![0, 0, 5, 0, 6] S3x64x1x64x1
  slices_S16x3x8x8_o0_0_5_6_S16x3x1x1 : S16x3x8x8.Slices ![0, 0, 5, 6] S16x3x1x1
  slices_S3x64x8x64x8_o0_0_5_0_7_S3x64x1x64x1 : S3x64x8x64x8.Slices ![0, 0, 5, 0, 7] S3x64x1x64x1
  slices_S16x3x8x8_o0_0_5_7_S16x3x1x1 : S16x3x8x8.Slices ![0, 0, 5, 7] S16x3x1x1
  slices_S3x64x8x64x8_o0_0_6_0_0_S3x64x1x64x1 : S3x64x8x64x8.Slices ![0, 0, 6, 0, 0] S3x64x1x64x1
  slices_S16x3x8x8_o0_0_6_0_S16x3x1x1 : S16x3x8x8.Slices ![0, 0, 6, 0] S16x3x1x1
  slices_S3x64x8x64x8_o0_0_6_0_1_S3x64x1x64x1 : S3x64x8x64x8.Slices ![0, 0, 6, 0, 1] S3x64x1x64x1
  slices_S16x3x8x8_o0_0_6_1_S16x3x1x1 : S16x3x8x8.Slices ![0, 0, 6, 1] S16x3x1x1
  slices_S3x64x8x64x8_o0_0_6_0_2_S3x64x1x64x1 : S3x64x8x64x8.Slices ![0, 0, 6, 0, 2] S3x64x1x64x1
  slices_S16x3x8x8_o0_0_6_2_S16x3x1x1 : S16x3x8x8.Slices ![0, 0, 6, 2] S16x3x1x1
  slices_S3x64x8x64x8_o0_0_6_0_3_S3x64x1x64x1 : S3x64x8x64x8.Slices ![0, 0, 6, 0, 3] S3x64x1x64x1
  slices_S16x3x8x8_o0_0_6_3_S16x3x1x1 : S16x3x8x8.Slices ![0, 0, 6, 3] S16x3x1x1
  slices_S3x64x8x64x8_o0_0_6_0_4_S3x64x1x64x1 : S3x64x8x64x8.Slices ![0, 0, 6, 0, 4] S3x64x1x64x1
  slices_S16x3x8x8_o0_0_6_4_S16x3x1x1 : S16x3x8x8.Slices ![0, 0, 6, 4] S16x3x1x1
  slices_S3x64x8x64x8_o0_0_6_0_5_S3x64x1x64x1 : S3x64x8x64x8.Slices ![0, 0, 6, 0, 5] S3x64x1x64x1
  slices_S16x3x8x8_o0_0_6_5_S16x3x1x1 : S16x3x8x8.Slices ![0, 0, 6, 5] S16x3x1x1
  slices_S3x64x8x64x8_o0_0_6_0_6_S3x64x1x64x1 : S3x64x8x64x8.Slices ![0, 0, 6, 0, 6] S3x64x1x64x1
  slices_S16x3x8x8_o0_0_6_6_S16x3x1x1 : S16x3x8x8.Slices ![0, 0, 6, 6] S16x3x1x1
  slices_S3x64x8x64x8_o0_0_6_0_7_S3x64x1x64x1 : S3x64x8x64x8.Slices ![0, 0, 6, 0, 7] S3x64x1x64x1
  slices_S16x3x8x8_o0_0_6_7_S16x3x1x1 : S16x3x8x8.Slices ![0, 0, 6, 7] S16x3x1x1
  slices_S3x64x8x64x8_o0_0_7_0_0_S3x64x1x64x1 : S3x64x8x64x8.Slices ![0, 0, 7, 0, 0] S3x64x1x64x1
  slices_S16x3x8x8_o0_0_7_0_S16x3x1x1 : S16x3x8x8.Slices ![0, 0, 7, 0] S16x3x1x1
  slices_S3x64x8x64x8_o0_0_7_0_1_S3x64x1x64x1 : S3x64x8x64x8.Slices ![0, 0, 7, 0, 1] S3x64x1x64x1
  slices_S16x3x8x8_o0_0_7_1_S16x3x1x1 : S16x3x8x8.Slices ![0, 0, 7, 1] S16x3x1x1
  slices_S3x64x8x64x8_o0_0_7_0_2_S3x64x1x64x1 : S3x64x8x64x8.Slices ![0, 0, 7, 0, 2] S3x64x1x64x1
  slices_S16x3x8x8_o0_0_7_2_S16x3x1x1 : S16x3x8x8.Slices ![0, 0, 7, 2] S16x3x1x1
  slices_S3x64x8x64x8_o0_0_7_0_3_S3x64x1x64x1 : S3x64x8x64x8.Slices ![0, 0, 7, 0, 3] S3x64x1x64x1
  slices_S16x3x8x8_o0_0_7_3_S16x3x1x1 : S16x3x8x8.Slices ![0, 0, 7, 3] S16x3x1x1
  slices_S3x64x8x64x8_o0_0_7_0_4_S3x64x1x64x1 : S3x64x8x64x8.Slices ![0, 0, 7, 0, 4] S3x64x1x64x1
  slices_S16x3x8x8_o0_0_7_4_S16x3x1x1 : S16x3x8x8.Slices ![0, 0, 7, 4] S16x3x1x1
  slices_S3x64x8x64x8_o0_0_7_0_5_S3x64x1x64x1 : S3x64x8x64x8.Slices ![0, 0, 7, 0, 5] S3x64x1x64x1
  slices_S16x3x8x8_o0_0_7_5_S16x3x1x1 : S16x3x8x8.Slices ![0, 0, 7, 5] S16x3x1x1
  slices_S3x64x8x64x8_o0_0_7_0_6_S3x64x1x64x1 : S3x64x8x64x8.Slices ![0, 0, 7, 0, 6] S3x64x1x64x1
  slices_S16x3x8x8_o0_0_7_6_S16x3x1x1 : S16x3x8x8.Slices ![0, 0, 7, 6] S16x3x1x1
  slices_S3x64x8x64x8_o0_0_7_0_7_S3x64x1x64x1 : S3x64x8x64x8.Slices ![0, 0, 7, 0, 7] S3x64x1x64x1
  slices_S16x3x8x8_o0_0_7_7_S16x3x1x1 : S16x3x8x8.Slices ![0, 0, 7, 7] S16x3x1x1
  transposes_S16x4096_p1_0_S4096x16 : S16x4096.Transposes [1, 0] S4096x16
  shapeCasts_S16_S1x16 : S16.ShapeCasts S1x16
  broadcasts_S1x16_S4096x16 : S1x16.Broadcasts S4096x16
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  shapeCasts_S4096x16_S1x4096x16 : S4096x16.ShapeCasts S1x4096x16
  dot_S16x3_S3x4096_S16x4096_1_0_0_1_n_n_wf : DotDims.WF S16x3 S3x4096 S16x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x3x8x8.size a ≤ S16x3x8x8.size a
  hwx0_1 : ∀ i : grid0.Coords, EltTy.bits .f32 = 32 ∨ (Rect.block (s := S16x3x8x8) S16x3x8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x16.size a ≤ S64x4096x16.size a
  hwx0_3 : ∀ i : grid0.Coords, EltTy.bits .f32 = 32 ∨ (Rect.block (s := S64x4096x16) S1x4096x16.size (cc0_transform_3 i) (hinb0_3 i)).WholeWords (EltTy.packing .f32)

variable [Facts₀]

def dot_S16x3_S3x4096_S16x4096_1_0_0_1_n_n : DotDims S16x3 S3x4096 S16x4096 where
  lhsContracting := [1]
  rhsContracting := [0]
  lhsNonContracting := [0]
  rhsNonContracting := [1]
  lhsBatch := []
  rhsBatch := []
  wf := dot_S16x3_S3x4096_S16x4096_1_0_0_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x3x8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S16x192 : Shape := ⟨2, ![16, 192]⟩
abbrev S16 : Shape := ⟨1, ![16]⟩
abbrev S64x3x64x8x64x8 : Shape := ⟨6, ![64, 3, 64, 8, 64, 8]⟩
abbrev S64x64x64x3x8x8 : Shape := ⟨6, ![64, 64, 64, 3, 8, 8]⟩
abbrev S64x4096x192 : Shape := ⟨3, ![64, 4096, 192]⟩
abbrev S64x4096x16 : Shape := ⟨3, ![64, 4096, 16]⟩
abbrev S1x1x16 : Shape := ⟨3, ![1, 1, 16]⟩

abbrev nBuf : Space → Nat
  | .hbm => 10
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S16x192, .f32⟩
  | .hbm, ⟨2, _⟩ => ⟨S16, .f32⟩
  | .hbm, ⟨3, _⟩ => ⟨S64x3x64x8x64x8, .f32⟩
  | .hbm, ⟨4, _⟩ => ⟨S64x64x64x3x8x8, .f32⟩
  | .hbm, ⟨5, _⟩ => ⟨S64x4096x192, .f32⟩
  | .hbm, ⟨6, _⟩ => ⟨S64x4096x16, .f32⟩
  | .hbm, ⟨7, _⟩ => ⟨S1x1x16, .f32⟩
  | .hbm, ⟨8, _⟩ => ⟨S64x4096x16, .f32⟩
  | .hbm, ⟨9, _⟩ => ⟨S64x4096x16, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S64x3x512x512_S64x3x64x8x64x8 : S64x3x512x512.ShapeCasts S64x3x64x8x64x8
  transposes_S64x3x64x8x64x8_S64x64x64x3x8x8_0_2_4_1_3_5 : S64x3x64x8x64x8.Transposes [0, 2, 4, 1, 3, 5] S64x64x64x3x8x8
  shapeCasts_S64x64x64x3x8x8_S64x4096x192 : S64x64x64x3x8x8.ShapeCasts S64x4096x192
  bcast_S16_S1x1x16_2 : S16.BroadcastsInDim S1x1x16 (![2] : Fin 1 → Fin S1x1x16.rank)
  bcast_S1x1x16_S64x4096x16_0_1_2 : S1x1x16.BroadcastsInDim S64x4096x16 (![0, 1, 2] : Fin 3 → Fin S64x4096x16.rank)
  dot_S64x4096x192_S16x192_S64x4096x16_2_1_01_0_n_n_wf : DotDims.WF S64x4096x192 S16x192 S64x4096x16 [2] [1] [0, 1] [0] [] []

variable [Facts₀]

def dot_S64x4096x192_S16x192_S64x4096x16_2_1_01_0_n_n : DotDims S64x4096x192 S16x192 S64x4096x16 where
  lhsContracting := [2]
  rhsContracting := [1]
  lhsNonContracting := [0, 1]
  rhsNonContracting := [0]
  lhsBatch := []
  rhsBatch := []
  wf := dot_S64x4096x192_S16x192_S64x4096x16_2_1_01_0_n_n_wf

class Facts : Prop extends Facts₀ where

variable [Facts]
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.PatchSum.lean ====
/-
  Patch embedding as a sum. An image of 3 channels and 512 × 512 pixels is cut into a 64 × 64 grid of 8 × 8 patches;
  patch `p` sits in patch row `p / 64` and patch column `p % 64`, and its pixel at offset `(a, b)` inside the patch is
  the image pixel `((p / 64) · 8 + a, (p % 64) · 8 + b)`. Flattening a patch channel first, then row, then column,
  gives 192 numbers, number `c · 64 + a · 8 + b` being channel `c` at offset `(a, b)`. The embedding of patch `p` of
  image `n` into output feature `k` is the inner product of that flattened patch with row `k` of the weight matrix,
  plus the bias: here written as the sum over the 64 offsets `(a, b)` of the sum over the 3 channels (`embedAt`).

  Two rearrangements of that sum, both valid in any additive commutative monoid (so on the extended reals without any
  finiteness): adding 64 terms one after the other onto zero, the `j`-th being the offset `(j / 8, j % 8)`, is the double
  sum over offsets (`chain_eq_sum`); and a sum over the 192 flattened positions is the sum over offsets and channels
  (`sum_cols`).
-/
import Idealize.ShloMosaic.PureOps.Ideal
import Idealize.ShloMosaic.Lib.ValueIdx
import proofs.«108915_j29076928594212_2_alg».proof.Proof.LibSumSplit

noncomputable section

open scoped BigOperators

namespace PatchEmbed

open Idealize.ShloMosaic Idealize.ShloMosaic.ValueIdx

/-- The patch row of patch `p` in the 64 × 64 grid. -/
def hi (p : Fin 4096) : Fin 64 := ⟨p.val / 64, by have := p.isLt; omega⟩
/-- The patch column of patch `p`. -/
def lo (p : Fin 4096) : Fin 64 := ⟨p.val % 64, Nat.mod_lt _ (by decide)⟩
/-- The pixel coordinate of offset `a` inside patch row (or column) `q`. -/
def pix (q : Fin 64) (a : Fin 8) : Fin 512 := ⟨q.val * 8 + a.val, by have := q.isLt; have := a.isLt; omega⟩
/-- The position of channel `c`, offset `(a, b)` in a flattened patch. -/
def col (c : Fin 3) (a b : Fin 8) : Fin 192 :=
  ⟨c.val * 64 + a.val * 8 + b.val, by have := c.isLt; have := a.isLt; have := b.isLt; omega⟩
/-- A natural number below 8 as an offset inside a patch. -/
def fin8 (a : ℕ) : Fin 8 := ⟨a % 8, Nat.mod_lt _ (by decide)⟩

theorem hi_lo (p : Fin 4096) : (hi p).val * 64 + (lo p).val = p.val := by
  show p.val / 64 * 64 + p.val % 64 = p.val
  omega

/-- The three channels' contribution at offset `(a, b)`: weight times pixel. -/
def term (img : FVec Ideal ⟨4, ![64, 3, 512, 512]⟩ .f32) (w : FVec Ideal ⟨2, ![16, 192]⟩ .f32)
    (n : Fin 64) (p : Fin 4096) (k : Fin 16) (a b : Fin 8) : EReal :=
  ∑ c : Fin 3, w (ix2 k (col c a b)) * img (ix4 n c (pix (hi p) a) (pix (lo p) b))

/-- Feature `k` of patch `p` of image `n`. -/
def embedAt (img : FVec Ideal ⟨4, ![64, 3, 512, 512]⟩ .f32) (w : FVec Ideal ⟨2, ![16, 192]⟩ .f32)
    (bias : FVec Ideal ⟨1, ![16]⟩ .f32) (n : Fin 64) (p : Fin 4096) (k : Fin 16) : EReal :=
  (∑ a : Fin 8, ∑ b : Fin 8, term img w n p k a b) + bias (ix1 k)

/-- The whole output array, index by index. -/
def embed (img : FVec Ideal ⟨4, ![64, 3, 512, 512]⟩ .f32) (w : FVec Ideal ⟨2, ![16, 192]⟩ .f32)
    (bias : FVec Ideal ⟨1, ![16]⟩ .f32) : FVec Ideal ⟨3, ![64, 4096, 16]⟩ .f32 :=
  fun i => embedAt img w bias ⟨(i 0).val, (i 0).isLt⟩ ⟨(i 1).val, (i 1).isLt⟩ ⟨(i 2).val, (i 2).isLt⟩

theorem embed_apply (img : FVec Ideal ⟨4, ![64, 3, 512, 512]⟩ .f32) (w : FVec Ideal ⟨2, ![16, 192]⟩ .f32)
    (bias : FVec Ideal ⟨1, ![16]⟩ .f32) (n : Fin 64) (p : Fin 4096) (k : Fin 16) :
    embed img w bias (ix3 n p k) = embedAt img w bias n p k := rfl

section Monoid
variable {M : Type*} [AddCommMonoid M]

/-- Sixty-four terms added one after the other onto zero, the `j`-th being the one of offset `(j / 8, j % 8)`, are the
    double sum over the offsets. -/
theorem chain_eq_sum (T : Fin 8 → Fin 8 → M) :
    SumSplit.accUpTo (fun j => T (fin8 (j / 8)) (fin8 (j % 8))) 64 = ∑ a : Fin 8, ∑ b : Fin 8, T a b := by
  refine (SumSplit.accUpTo_eq_sum _ 64).trans ?_
  refine (SumSplit.sum_blocks 8 8 (fun s : Fin (8 * 8) => T (fin8 (s.val / 8)) (fin8 (s.val % 8)))).trans ?_
  refine Finset.sum_congr rfl fun a _ => Finset.sum_congr rfl fun b _ => ?_
  have ha : fin8 ((8 * a.val + b.val) / 8) = a := Fin.ext (by
    show (8 * a.val + b.val) / 8 % 8 = a.val
    have := a.isLt; have := b.isLt; omega)
  have hb : fin8 ((8 * a.val + b.val) % 8) = b := Fin.ext (by
    show (8 * a.val + b.val) % 8 % 8 = b.val
    have := b.isLt; omega)
  show T (fin8 ((8 * a.val + b.val) / 8)) (fin8 ((8 * a.val + b.val) % 8)) = T a b
  rw [ha, hb]

/-- A sum over the 192 positions of a flattened patch is the sum over the offsets and the channels. -/
theorem sum_cols (f : Fin 192 → M) : ∑ d : Fin 192, f d = ∑ a : Fin 8, ∑ b : Fin 8, ∑ c : Fin 3, f (col c a b) := by
  have h1 : ∑ d : Fin 192, f d = ∑ c : Fin 3, ∑ a : Fin 8, ∑ b : Fin 8, f (col c a b) := by
    refine (SumSplit.sum_blocks 3 64 (fun d : Fin (3 * 64) => f d)).trans ?_
    refine Finset.sum_congr rfl fun c _ => ?_
    refine (SumSplit.sum_blocks 8 8 (fun s : Fin (8 * 8) =>
      f ⟨64 * c.val + s.val, SumSplit.blk_lt (n := 3) (b := 64) c s⟩)).trans ?_
    refine Finset.sum_congr rfl fun a _ => Finset.sum_congr rfl fun b _ => ?_
    refine congrArg f (Fin.ext ?_)
    show 64 * c.val + (8 * a.val + b.val) = c.val * 64 + a.val * 8 + b.val
    omega
  rw [h1, Finset.sum_comm]
  refine Finset.sum_congr rfl fun a _ => ?_
  rw [Finset.sum_comm]

end Monoid

end PatchEmbed

end
-- ==== Proof.PatchLayout.lean ====
/-
  The re-layings of the patch-embedding block, read at an index. The block's image `[1, 3, 512, 512]` is viewed
  `[3, 64, 8, 64, 8]` — channel, patch row, row inside the patch, patch column, column inside the patch —, so that
  entry `(c, i, a, j, b)` is pixel `(i · 8 + a, j · 8 + b)` of channel `c` (`patches_apply`). Fixing the offset `(a, b)`
  inside the patch leaves one pixel per patch and channel, `[3, 64, 64]` (`window_apply`), which flattened to
  `[3, 4096]` lists the patches row by row (`flat_apply`). The weights `[16, 3, 8, 8]` at a fixed offset are a
  `[16, 3]` matrix (`wwindow_apply`). The result `[16, 4096]` is transposed, the bias added along every row, and the
  sum stored as a `[1, 4096, 16]` block (`tail_apply`).
-/
import Idealize.ShloMosaic.Lib.Pipeline.Value
import Idealize.ShloMosaic.Lib.ValueIdx
import Idealize.ShloMosaic.Lib.ValueLayout
import proofs.«108915_j29076928594212_2_alg».proof.KernelIdeal
import proofs.«108915_j29076928594212_2_alg».proof.Proof.PatchSum

noncomputable section

namespace PatchEmbed

open Idealize.ShloMosaic Idealize.ShloMosaic.ValueIdx Cert.KernelIdeal

section Layout
variable {α : Type}

/-- The image block viewed by patches: entry `(c, i, a, j, b)` is pixel `(i · 8 + a, j · 8 + b)` of channel `c`. -/
theorem patches_apply (x : S1x3x512x512.Idx → α) (h1 : S1x3x512x512.ShapeCasts S3x512x512)
    (h2 : S3x512x512.ShapeCasts S3x64x8x64x8) (c : Fin 3) (i : Fin 64) (a : Fin 8) (j : Fin 64) (b : Fin 8) :
    shapeCast S3x64x8x64x8 (shapeCast S3x512x512 x h1) h2 (ix5 c i a j b)
      = x (ix4 (0 : Fin 1) c (pix i a) (pix j b)) := by
  refine (shapeCast_apply _ h2 (ix5 c i a j b) (ix3 c (pix i a) (pix j b)) ?_).trans
    (shapeCast_1abc_abc_apply x h1 c (pix i a) (pix j b))
  rw [Shape.rowMajor_val_three, Shape.rowMajor_val_five]
  show (c.val * 512 + (i.val * 8 + a.val)) * 512 + (j.val * 8 + b.val)
    = (((c.val * 64 + i.val) * 8 + a.val) * 64 + j.val) * 8 + b.val
  omega

/-- One pixel per patch: the slice at offset `(a, b)` inside the patches, with its two unit axes dropped. -/
theorem window_apply (a b : ℕ) (X : S3x64x8x64x8.Idx → α) (h : S3x64x8x64x8.Slices ![0, 0, a, 0, b] S3x64x1x64x1)
    (h' : S3x64x1x64x1.ShapeCasts S3x64x64) (c : Fin 3) (i j : Fin 64) :
    shapeCast S3x64x64 (extractStridedSlice S3x64x1x64x1 ![0, 0, a, 0, b] X h) h' (ix3 c i j)
      = X (ix5 c i (fin8 a) j (fin8 b)) := by
  have ha : a + 1 ≤ 8 := h.2 2
  have hb : b + 1 ≤ 8 := h.2 4
  refine (shapeCast_apply _ h' (ix3 c i j) (ix5 c i (0 : Fin 1) j (0 : Fin 1)) ?_).trans ?_
  · rw [Shape.rowMajor_val_five, Shape.rowMajor_val_three]
    show (((c.val * 64 + i.val) * 1 + 0) * 64 + j.val) * 1 + 0 = (c.val * 64 + i.val) * 64 + j.val
    omega
  · refine extractStridedSlice_apply _ X h _ _ fun ax => ?_
    match ax with
    | ⟨0, _⟩ => show c.val = 0 + c.val; omega
    | ⟨1, _⟩ => show i.val = 0 + i.val; omega
    | ⟨2, _⟩ => show a % 8 = a + 0; omega
    | ⟨3, _⟩ => show j.val = 0 + j.val; omega
    | ⟨4, _⟩ => show b % 8 = b + 0; omega

/-- The patches of a channel listed row by row: patch `p` is patch row `p / 64`, patch column `p % 64`. -/
theorem flat_apply (y : S3x64x64.Idx → α) (h : S3x64x64.ShapeCasts S3x4096) (c : Fin 3) (p : Fin 4096) :
    shapeCast S3x4096 y h (ix2 c p) = y (ix3 c (hi p) (lo p)) := by
  refine shapeCast_apply y h (ix2 c p) (ix3 c (hi p) (lo p)) ?_
  rw [Shape.rowMajor_val_three, Shape.rowMajor_val_two]
  show (c.val * 64 + (hi p).val) * 64 + (lo p).val = c.val * 4096 + p.val
  have := hi_lo p
  omega

/-- The weights at offset `(a, b)` inside the patch: a `[16, 3]` matrix. -/
theorem wwindow_apply (a b : ℕ) (W : S16x3x8x8.Idx → α) (h : S16x3x8x8.Slices ![0, 0, a, b] S16x3x1x1)
    (h' : S16x3x1x1.ShapeCasts S16x3) (k : Fin 16) (c : Fin 3) :
    shapeCast S16x3 (extractStridedSlice S16x3x1x1 ![0, 0, a, b] W h) h' (ix2 k c) = W (ix4 k c (fin8 a) (fin8 b)) := by
  have ha : a + 1 ≤ 8 := h.2 2
  have hb : b + 1 ≤ 8 := h.2 3
  refine (shapeCast_apply _ h' (ix2 k c) (ix4 k c (0 : Fin 1) (0 : Fin 1)) ?_).trans ?_
  · rw [Shape.rowMajor_val_four, Shape.rowMajor_val_two]
    show ((k.val * 3 + c.val) * 1 + 0) * 1 + 0 = k.val * 3 + c.val
    omega
  · refine extractStridedSlice_apply _ W h _ _ fun ax => ?_
    match ax with
    | ⟨0, _⟩ => show k.val = 0 + k.val; omega
    | ⟨1, _⟩ => show c.val = 0 + c.val; omega
    | ⟨2, _⟩ => show a % 8 = a + 0; omega
    | ⟨3, _⟩ => show b % 8 = b + 0; omega

end Layout

/-- The end of the body: the `[16, 4096]` accumulator transposed, the bias added to every row, stored as a
    `[1, 4096, 16]` block. -/
theorem tail_apply (acc : FVec Ideal S16x4096 .f32) (bias : Vec Ideal S16 .f32)
    (ht : S16x4096.Transposes [1, 0] S4096x16) (hc : S16.ShapeCasts S1x16) (hb : S1x16.Broadcasts S4096x16)
    (hs : S4096x16.ShapeCasts S1x4096x16) (u : Fin 1) (p : Fin 4096) (k : Fin 16) :
    shapeCast S1x4096x16 (addf (transpose S4096x16 [1, 0] acc ht) (broadcastTo S4096x16 (shapeCast S1x16 bias hc) hb)) hs
        (ix3 u p k)
      = acc (ix2 k p) + bias (ix1 k) := by
  refine (shapeCast_ab_1ab_apply _ hs u p k).trans ?_
  rw [addf_apply]
  refine congrArg₂ (· + ·) (transpose_ix2_apply acc ht p k) ?_
  exact (broadcastTo_1b_ab_apply _ hb p k).trans (shapeCast_a_1a_apply bias hc 0 k)

end PatchEmbed

end
-- ==== Proof.PatchStep.lean ====
/-
  One step of the accumulation. For a fixed offset `(a, b)` inside the patches the block multiplies the `[16, 3]`
  weights at that offset by the `[3, 4096]` pixels at that offset — at feature `k` and patch `p` the sum over the three
  channels of weight times pixel (`blockTerm`) — and adds the product to the accumulator (`add_term`). The accumulator
  starts at zero (`zero_start`), and the `j`-th step is the offset `(j / 8, j % 8)` (`stepTerm`).
-/
import Idealize.ShloMosaic.PureOps.Ideal.Laws
import proofs.«108915_j29076928594212_2_alg».proof.Proof.Gen.KernelIdeal
import proofs.«108915_j29076928594212_2_alg».proof.Proof.LibPlainMatmul
import proofs.«108915_j29076928594212_2_alg».proof.Proof.PatchLayout

noncomputable section

open scoped BigOperators

namespace PatchEmbed

open Idealize.ShloMosaic Idealize.ShloMosaic.ValueIdx Cert.KernelIdeal Cert.KernelIdeal.Gen

/-- The three channels' contribution at offset `(a, b)`, over the block's views: weight times pixel. -/
def blockTerm (W : FVec Ideal S16x3x8x8 .f32) (X : FVec Ideal S3x64x8x64x8 .f32) (k : Fin 16) (p : Fin 4096)
    (a b : Fin 8) : EReal :=
  ∑ c : Fin 3, W (ix4 k c a b) * X (ix5 c (hi p) a (lo p) b)

/-- The `j`-th step's contribution: the offsets run row by row through the patch. -/
def stepTerm (W : FVec Ideal S16x3x8x8 .f32) (X : FVec Ideal S3x64x8x64x8 .f32) (k : Fin 16) (p : Fin 4096)
    (j : ℕ) : EReal :=
  blockTerm W X k p (fin8 (j / 8)) (fin8 (j % 8))

/-- The block's `[16, 3]` by `[3, 4096]` product into a zero accumulator, at `(k, p)`: the sum over the channels. -/
theorem mm_apply (lhs : FVec Ideal S16x3 .f32) (rhs : FVec Ideal S3x4096 .f32) (k : Fin 16) (p : Fin 4096) :
    matmul dot_S16x3_S3x4096_S16x4096_1_0_0_1_n_n (some .fp32) lhs rhs (constant (F := Ideal) S16x4096 .f32 0x00000000#32)
        (ix2 k p)
      = ∑ c : Fin 3, lhs (ix2 k c) * rhs (ix2 c p) :=
  PlainMatmul.plainMatmul_apply (some .fp32) lhs rhs k p

/-- Adding one offset's product to the accumulator adds, at `(k, p)`, that offset's three channels. -/
theorem add_term (a b : ℕ) (W : FVec Ideal S16x3x8x8 .f32) (X : FVec Ideal S3x64x8x64x8 .f32)
    (acc : FVec Ideal S16x4096 .f32)
    (hW : S16x3x8x8.Slices ![0, 0, a, b] S16x3x1x1) (hW' : S16x3x1x1.ShapeCasts S16x3)
    (hX : S3x64x8x64x8.Slices ![0, 0, a, 0, b] S3x64x1x64x1) (hX' : S3x64x1x64x1.ShapeCasts S3x64x64)
    (hX'' : S3x64x64.ShapeCasts S3x4096) (k : Fin 16) (p : Fin 4096) :
    addf acc (matmul dot_S16x3_S3x4096_S16x4096_1_0_0_1_n_n (some .fp32)
        (shapeCast S16x3 (extractStridedSlice S16x3x1x1 ![0, 0, a, b] W hW) hW')
        (shapeCast S3x4096 (shapeCast S3x64x64 (extractStridedSlice S3x64x1x64x1 ![0, 0, a, 0, b] X hX) hX') hX'')
        (constant (F := Ideal) S16x4096 .f32 0x00000000#32)) (ix2 k p)
      = acc (ix2 k p) + blockTerm W X k p (fin8 a) (fin8 b) := by
  rw [addf_apply, mm_apply]
  refine congrArg (acc (ix2 k p) + ·) (Finset.sum_congr rfl fun c _ => ?_)
  rw [wwindow_apply, flat_apply, window_apply]

/-- The accumulator starts at zero. -/
theorem zero_start (i : S16x4096.Idx) :
    broadcast S16x4096 (Scalar.ofBits (F := Ideal) .f32 0x00000000#32) i = (0 : EReal) :=
  Ideal.ofBits_zero_f32

end PatchEmbed

end
-- ==== Proof.PatchStepsA.lean ====
/-
  The accumulation, first half. The body adds the 64 offsets' products one after the other, and its text is cut into
  stretches; each lemma here reads one stretch at feature `k` and patch `p`: given that the accumulator it starts from
  holds the first steps' sum, it ends holding the sum of the steps up to its last one (`acc5` … `acc35`: after 5, 12,
  20, 27 and 35 steps). The steps are the offsets `(j / 8, j % 8)` in order, each contributing its three channels.
-/
import proofs.«108915_j29076928594212_2_alg».proof.Proof.Gen.KernelIdeal.Skeleton
import proofs.«108915_j29076928594212_2_alg».proof.Proof.PatchStep

noncomputable section

open scoped BigOperators

namespace PatchEmbed

open Idealize.ShloMosaic Idealize.ShloMosaic.ValueIdx Cert.KernelIdeal Cert.KernelIdeal.Gen

/-- The first five steps, from zero. -/
theorem acc5 (v0 : Vec Ideal S1x3x512x512 .f32) (v3 : Vec Ideal S16x3x8x8 .f32) (k : Fin 16) (p : Fin 4096) :
    k0_pay3 v0 v3 (ix2 k p) = SumSplit.accUpTo (stepTerm (k0_pay2 v3) (k0_pay1 v0) k p) 5 := by
  unfold k0_pay3
  simp only [add_term, zero_start, SumSplit.accUpTo, stepTerm, Nat.reduceDiv, Nat.reduceMod]

/-- Steps 5 to 11: the sixth offset's pixels were sliced before the stretch begins. -/
theorem acc12 (v0 : Vec Ideal S1x3x512x512 .f32) (W : FVec Ideal S16x3x8x8 .f32) (acc : FVec Ideal S16x4096 .f32)
    (hacc : ∀ (k : Fin 16) (p : Fin 4096), acc (ix2 k p) = SumSplit.accUpTo (stepTerm W (k0_pay1 v0) k p) 5)
    (k : Fin 16) (p : Fin 4096) :
    k0_pay5 (k0_pay1 v0) W acc (k0_pay4 v0) (ix2 k p) = SumSplit.accUpTo (stepTerm W (k0_pay1 v0) k p) 12 := by
  unfold k0_pay5 k0_pay4
  simp only [add_term, hacc, SumSplit.accUpTo, stepTerm, Nat.reduceDiv, Nat.reduceMod]

/-- Steps 12 to 19: the thirteenth offset's pixels and weights were sliced before the stretch begins. -/
theorem acc20 (X : FVec Ideal S3x64x8x64x8 .f32) (W : FVec Ideal S16x3x8x8 .f32) (acc : FVec Ideal S16x4096 .f32)
    (hacc : ∀ (k : Fin 16) (p : Fin 4096), acc (ix2 k p) = SumSplit.accUpTo (stepTerm W X k p) 12)
    (k : Fin 16) (p : Fin 4096) :
    k0_pay8 X W acc (k0_pay6 X) (k0_pay7 W) (constant (F := Ideal) S16x4096 .f32 0x00000000#32) (ix2 k p)
      = SumSplit.accUpTo (stepTerm W X k p) 20 := by
  unfold k0_pay8 k0_pay6 k0_pay7
  simp only [add_term, hacc, SumSplit.accUpTo, stepTerm, Nat.reduceDiv, Nat.reduceMod]

/-- Steps 20 to 26. -/
theorem acc27 (X : FVec Ideal S3x64x8x64x8 .f32) (W : FVec Ideal S16x3x8x8 .f32) (acc : FVec Ideal S16x4096 .f32)
    (hacc : ∀ (k : Fin 16) (p : Fin 4096), acc (ix2 k p) = SumSplit.accUpTo (stepTerm W X k p) 20)
    (k : Fin 16) (p : Fin 4096) :
    k0_pay10 X W acc (k0_pay9 X) (ix2 k p) = SumSplit.accUpTo (stepTerm W X k p) 27 := by
  unfold k0_pay10 k0_pay9
  simp only [add_term, hacc, SumSplit.accUpTo, stepTerm, Nat.reduceDiv, Nat.reduceMod]

/-- Steps 27 to 34. -/
theorem acc35 (X : FVec Ideal S3x64x8x64x8 .f32) (W : FVec Ideal S16x3x8x8 .f32) (acc : FVec Ideal S16x4096 .f32)
    (hacc : ∀ (k : Fin 16) (p : Fin 4096), acc (ix2 k p) = SumSplit.accUpTo (stepTerm W X k p) 27)
    (k : Fin 16) (p : Fin 4096) :
    k0_pay13 X W acc (k0_pay11 X) (k0_pay12 W) (constant (F := Ideal) S16x4096 .f32 0x00000000#32) (ix2 k p)
      = SumSplit.accUpTo (stepTerm W X k p) 35 := by
  unfold k0_pay13 k0_pay11 k0_pay12
  simp only [add_term, hacc, SumSplit.accUpTo, stepTerm, Nat.reduceDiv, Nat.reduceMod]

end PatchEmbed

end
-- ==== Proof.PatchStepsB.lean ====
/-
  The accumulation, second half: the stretches that end after 42, 50 and 57 steps (`acc42`, `acc50`, `acc57`), and the
  last one (`block_apply`), which after the 64th step transposes the accumulator, adds the bias along every row and
  lays the result out as the `[1, 4096, 16]` block: entry `(p, k)` is the 64 steps' sum at `(k, p)` plus the bias at `k`.
-/
import proofs.«108915_j29076928594212_2_alg».proof.Proof.Gen.KernelIdeal.Skeleton
import proofs.«108915_j29076928594212_2_alg».proof.Proof.PatchStep

noncomputable section

open scoped BigOperators

namespace PatchEmbed

open Idealize.ShloMosaic Idealize.ShloMosaic.ValueIdx Cert.KernelIdeal Cert.KernelIdeal.Gen

/-- Steps 35 to 41. -/
theorem acc42 (X : FVec Ideal S3x64x8x64x8 .f32) (W : FVec Ideal S16x3x8x8 .f32) (acc : FVec Ideal S16x4096 .f32)
    (hacc : ∀ (k : Fin 16) (p : Fin 4096), acc (ix2 k p) = SumSplit.accUpTo (stepTerm W X k p) 35)
    (k : Fin 16) (p : Fin 4096) :
    k0_pay15 X W acc (k0_pay14 X) (ix2 k p) = SumSplit.accUpTo (stepTerm W X k p) 42 := by
  unfold k0_pay15 k0_pay14
  simp only [add_term, hacc, SumSplit.accUpTo, stepTerm, Nat.reduceDiv, Nat.reduceMod]

/-- Steps 42 to 49. -/
theorem acc50 (X : FVec Ideal S3x64x8x64x8 .f32) (W : FVec Ideal S16x3x8x8 .f32) (acc : FVec Ideal S16x4096 .f32)
    (hacc : ∀ (k : Fin 16) (p : Fin 4096), acc (ix2 k p) = SumSplit.accUpTo (stepTerm W X k p) 42)
    (k : Fin 16) (p : Fin 4096) :
    k0_pay18 X W acc (k0_pay16 X) (k0_pay17 W) (constant (F := Ideal) S16x4096 .f32 0x00000000#32) (ix2 k p)
      = SumSplit.accUpTo (stepTerm W X k p) 50 := by
  unfold k0_pay18 k0_pay16 k0_pay17
  simp only [add_term, hacc, SumSplit.accUpTo, stepTerm, Nat.reduceDiv, Nat.reduceMod]

/-- Steps 50 to 56. -/
theorem acc57 (X : FVec Ideal S3x64x8x64x8 .f32) (W : FVec Ideal S16x3x8x8 .f32) (acc : FVec Ideal S16x4096 .f32)
    (hacc : ∀ (k : Fin 16) (p : Fin 4096), acc (ix2 k p) = SumSplit.accUpTo (stepTerm W X k p) 50)
    (k : Fin 16) (p : Fin 4096) :
    k0_pay20 X W acc (k0_pay19 X) (ix2 k p) = SumSplit.accUpTo (stepTerm W X k p) 57 := by
  unfold k0_pay20 k0_pay19
  simp only [add_term, hacc, SumSplit.accUpTo, stepTerm, Nat.reduceDiv, Nat.reduceMod]

/-- Steps 57 to 63, then the transpose, the bias and the block's layout. -/
theorem block_apply (X : FVec Ideal S3x64x8x64x8 .f32) (W : FVec Ideal S16x3x8x8 .f32) (B : Vec Ideal S16 .f32)
    (acc : FVec Ideal S16x4096 .f32)
    (hacc : ∀ (k : Fin 16) (p : Fin 4096), acc (ix2 k p) = SumSplit.accUpTo (stepTerm W X k p) 57)
    (u : Fin 1) (p : Fin 4096) (k : Fin 16) :
    k0_pay23 X W B acc (k0_pay21 X) (k0_pay22 W) (constant (F := Ideal) S16x4096 .f32 0x00000000#32) (ix3 u p k)
      = SumSplit.accUpTo (stepTerm W X k p) 64 + B (ix1 k) := by
  unfold k0_pay23 k0_pay21 k0_pay22
  refine (tail_apply _ B transposes_S16x4096_p1_0_S4096x16 shapeCasts_S16_S1x16 broadcasts_S1x16_S4096x16
    shapeCasts_S4096x16_S1x4096x16 u p k).trans ?_
  simp only [add_term, hacc, SumSplit.accUpTo, stepTerm, Nat.reduceDiv, Nat.reduceMod]

end PatchEmbed

end
-- ==== Proof.PatchBlock.lean ====
/-
  What one grid point computes. From its three loaded blocks — an image `[1, 3, 512, 512]`, the weights viewed
  `[16, 3, 8, 8]` and the bias `[16]` — the body's stretches chained end to end (`blockValue`) leave, at patch `p` and
  feature `k`, the sum over the 64 offsets `(a, b)` inside the patch and the 3 channels of weight `(k, c, a, b)` times
  pixel `((p / 64) · 8 + a, (p % 64) · 8 + b)` of channel `c`, plus the bias at `k` (`blockValue_apply`,
  `out_apply`): the 64 steps added one after the other are the double sum over the offsets.
-/
import proofs.«108915_j29076928594212_2_alg».proof.Proof.Gen.KernelIdeal.Frame
import proofs.«108915_j29076928594212_2_alg».proof.Proof.PatchStepsA
import proofs.«108915_j29076928594212_2_alg».proof.Proof.PatchStepsB

noncomputable section

open scoped BigOperators

namespace PatchEmbed

open Idealize.ShloMosaic Idealize.ShloMosaic.ValueIdx Cert.KernelIdeal Cert.KernelIdeal.Gen

/-- The body's stretches chained: the value it stores, from the three loaded blocks. -/
def blockValue (v0 : Vec Ideal S1x3x512x512 .f32) (v3 : Vec Ideal S16x3x8x8 .f32) (B : Vec Ideal S16 .f32) :
    FVec Ideal S1x4096x16 .f32 :=
  k0_pay23 (k0_pay1 v0) (k0_pay2 v3) B (k0_pay20 (k0_pay1 v0) (k0_pay2 v3) (k0_pay18 (k0_pay1 v0) (k0_pay2 v3) (k0_pay15 (k0_pay1 v0) (k0_pay2 v3) (k0_pay13 (k0_pay1 v0) (k0_pay2 v3) (k0_pay10 (k0_pay1 v0) (k0_pay2 v3) (k0_pay8 (k0_pay1 v0) (k0_pay2 v3) (k0_pay5 (k0_pay1 v0) (k0_pay2 v3) (k0_pay3 v0 v3) (k0_pay4 v0)) (k0_pay6 (k0_pay1 v0)) (k0_pay7 (k0_pay2 v3)) (constant S16x4096 .f32 0x00000000#32)) (k0_pay9 (k0_pay1 v0))) (k0_pay11 (k0_pay1 v0)) (k0_pay12 (k0_pay2 v3)) (constant S16x4096 .f32 0x00000000#32)) (k0_pay14 (k0_pay1 v0))) (k0_pay16 (k0_pay1 v0)) (k0_pay17 (k0_pay2 v3)) (constant S16x4096 .f32 0x00000000#32)) (k0_pay19 (k0_pay1 v0))) (k0_pay21 (k0_pay1 v0)) (k0_pay22 (k0_pay2 v3)) (constant S16x4096 .f32 0x00000000#32)

/-- At patch `p` and feature `k` the block holds the double sum over the offsets, plus the bias. -/
theorem blockValue_apply (v0 : Vec Ideal S1x3x512x512 .f32) (v3 : Vec Ideal S16x3x8x8 .f32) (B : Vec Ideal S16 .f32)
    (u : Fin 1) (p : Fin 4096) (k : Fin 16) :
    blockValue v0 v3 B (ix3 u p k)
      = (∑ a : Fin 8, ∑ b : Fin 8, blockTerm (k0_pay2 v3) (k0_pay1 v0) k p a b) + B (ix1 k) := by
  unfold blockValue
  refine (block_apply (k0_pay1 v0) (k0_pay2 v3) B _ (fun k p =>
    acc57 _ _ _ (fun k p => acc50 _ _ _ (fun k p => acc42 _ _ _ (fun k p => acc35 _ _ _ (fun k p =>
      acc27 _ _ _ (fun k p => acc20 _ _ _ (fun k p => acc12 v0 _ _ (fun k p => acc5 v0 v3 k p) k p) k p) k p) k p)
        k p) k p) k p) u p k).trans ?_
  exact congrArg (· + B (ix1 k)) (chain_eq_sum (fun a b => blockTerm (k0_pay2 v3) (k0_pay1 v0) k p a b))

/-- The offsets' contributions over the loaded blocks themselves: the weights' view is the block as loaded, and the
    image's view by patches reads pixel `(i · 8 + a, j · 8 + b)`. -/
theorem blockTerm_loaded (v0 : Vec Ideal S1x3x512x512 .f32) (v3 : Vec Ideal S16x3x8x8 .f32) (k : Fin 16)
    (p : Fin 4096) (a b : Fin 8) :
    blockTerm (k0_pay2 v3) (k0_pay1 v0) k p a b
      = ∑ c : Fin 3, (v3 (ix4 k c a b) : EReal) * (v0 (ix4 (0 : Fin 1) c (pix (hi p) a) (pix (lo p) b)) : EReal) := by
  unfold blockTerm
  refine Finset.sum_congr rfl fun c _ => ?_
  simp only [k0_pay1, k0_pay2, shapeCast_self, patches_apply]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

/-- What the body leaves in the output's staging buffer is `blockValue` of the input blocks. -/
theorem out_eq (x0 : Vec Ideal S1x3x512x512 .f32) (x1 : Vec Ideal S16x3x8x8 .f32) (x2 : Vec Ideal S16 .f32) :
    out0_3 x0 x1 x2 = blockValue x0 x1 x2 := by
  unfold out0_3
  rw [View.canon_unit_zero hz3]
  simp only [View.ld_unit_zero (S := S1x3x512x512) hz4, View.ld_unit_zero (S := S16x3x8x8) hz4,
    View.ld_unit_zero (S := S16) hz1]
  rfl

/-- One grid point's block, entry `(p, k)`, from the blocks it loaded. -/
theorem out_apply (x0 : Vec Ideal S1x3x512x512 .f32) (x1 : Vec Ideal S16x3x8x8 .f32) (x2 : Vec Ideal S16 .f32)
    (u : Fin 1) (p : Fin 4096) (k : Fin 16) :
    out0_3 x0 x1 x2 (ix3 u p k)
      = (∑ a : Fin 8, ∑ b : Fin 8, ∑ c : Fin 3,
          (x1 (ix4 k c a b) : EReal) * (x0 (ix4 (0 : Fin 1) c (pix (hi p) a) (pix (lo p) b)) : EReal))
        + (x2 (ix1 k) : EReal) := by
  rw [out_eq, blockValue_apply]
  simp only [blockTerm_loaded]

end PatchEmbed

end
-- ==== Proof.PatchArray.lean ====
/-
  From blocks to the array. The grid has one point per image: point `t` loads image `t` whole, the reshaped weights
  and the bias whole, and writes block `t` of the output, all 4096 patches by 16 features of image `t`. The weights
  reach the region through a reshape on the host, `[16, 192]` viewed `[16, 3, 8, 8]`: entry `(k, c, a, b)` is the matrix
  entry `(k, c · 64 + a · 8 + b)`. So what point `t` writes back is block `t` of the patch sum of the three arguments
  (`flushed_eq`), every output index lies in the block of its image (`cover`), and the output array ends holding the
  patch sum (`final`, `run`).
-/
import proofs.«108915_j29076928594212_2_alg».proof.Proof.Gen.KernelIdeal.Value
import proofs.«108915_j29076928594212_2_alg».proof.Proof.PatchBlock
import Idealize.ShloMosaic.Lib.Pipeline.Value
import Idealize.ShloMosaic.Lib.StableHlo.Run

noncomputable section

open scoped BigOperators

namespace PatchEmbed.Kernel

open Idealize.ShloMosaic Idealize.ShloMosaic.TcCoe Idealize.ShloMosaic.ValueIdx Idealize.SL.Sem PatchEmbed
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The patch sum of the three argument arrays of core `c`. -/
def result (c : Dev nD) : FVec Ideal ⟨3, ![64, 4096, 16]⟩ .f32 :=
  embed (m ((c : Thread nD τ).loc main_arg0)) (m ((c : Thread nD τ).loc main_arg1)) (m ((c : Thread nD τ).loc main_arg2))

/-- A grid point is an image number. -/
def image (t : Fin cfg0.N) : Fin 64 := ⟨t.val, Nat.lt_of_lt_of_eq t.isLt (N_0 : cfg0.N = 64)⟩

/-- The index maps over the grid: the image and the output move with the point, the weights and the bias stay. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 4) = 0 ∧ win0_1.index t (1 : Fin 4) = 0 ∧ win0_1.index t (2 : Fin 4) = 0
    ∧ win0_1.index t (3 : Fin 4) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- The weights as the region finds them: the host's reshape of the weight matrix. -/
theorem weights_eq (c : Dev nD) :
    (V m c main_v0 : S16x3x8x8.Idx → EReal)
      = shapeCast S16x3x8x8 (m ((c : Thread nD τ).loc main_arg1)) shapeCasts_S16x192_S16x3x8x8 := by
  dsimp only [Gen.V, Gen.hostOps0]
  after_results
  rfl

/-- Point `t`'s image block is image `t`. -/
theorem image_block (c : Dev nD) (t : Fin cfg0.N) (ch : Fin 3) (r s : Fin 512) :
    (iblk m c 0 t : Vec Ideal S1x3x512x512 .f32) (ix4 (0 : Fin 1) ch r s)
      = (m ((c : Thread nD τ).loc main_arg0) : S64x3x512x512.Idx → Elt Ideal .f32) (ix4 (image t) ch r s) := by
  obtain ⟨e0, e1, e2, e3, -⟩ := idx_facts t
  unfold iblk
  rw [View.read_apply]
  show V m c main_arg0 _ = _
  rw [V_main_arg0]
  congr 1
  funext a
  apply Fin.ext
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 512 + 1 * r.val = r.val; omega
  | ⟨3, _⟩ => show win0_0.index t (3 : Fin 4) * 512 + 1 * s.val = s.val; omega

/-- Every point's weight block is the whole reshaped matrix: entry `(k, c, a, b)` is entry `(k, c · 64 + a · 8 + b)`. -/
theorem weight_block (c : Dev nD) (t : Fin cfg0.N) (k : Fin 16) (ch : Fin 3) (a b : Fin 8) :
    (iblk m c 1 t : Vec Ideal S16x3x8x8 .f32) (ix4 k ch a b)
      = (m ((c : Thread nD τ).loc main_arg1) : S16x192.Idx → Elt Ideal .f32) (ix2 k (col ch a b)) := by
  obtain ⟨-, -, -, -, e0, e1, e2, e3, -⟩ := idx_facts t
  unfold iblk
  rw [View.read_apply]
  show (V m c main_v0 : S16x3x8x8.Idx → EReal) _ = _
  rw [weights_eq]
  refine shapeCast_apply _ shapeCasts_S16x192_S16x3x8x8 _ (ix2 k (col ch a b)) ?_
  rw [Shape.rowMajor_val_two, Shape.rowMajor_val_four]
  show k.val * 192 + (ch.val * 64 + a.val * 8 + b.val)
    = (((win0_1.index t (0 : Fin 4) * 16 + 1 * k.val) * 3 + (win0_1.index t (1 : Fin 4) * 3 + 1 * ch.val)) * 8
        + (win0_1.index t (2 : Fin 4) * 8 + 1 * a.val)) * 8 + (win0_1.index t (3 : Fin 4) * 8 + 1 * b.val)
  rw [e0, e1, e2, e3]
  omega

/-- Every point's bias block is the whole bias. -/
theorem bias_block (c : Dev nD) (t : Fin cfg0.N) (k : Fin 16) :
    (iblk m c 2 t : Vec Ideal S16 .f32) (ix1 k)
      = (m ((c : Thread nD τ).loc main_arg2) : S16.Idx → Elt Ideal .f32) (ix1 k) := by
  obtain ⟨-, -, -, -, -, -, -, -, e0, -⟩ := idx_facts t
  unfold iblk
  rw [View.read_apply]
  show V m c main_arg2 _ = _
  rw [V_main_arg2]
  congr 1
  funext a
  apply Fin.ext
  match a with
  | ⟨0, _⟩ => show win0_2.index t (0 : Fin 1) * 16 + 1 * k.val = k.val; omega

/-- What point `t` writes back is block `t` of the patch sum. -/
theorem flushed_eq (c : Dev nD) (t : Fin cfg0.N) :
    (dats m 0 c).flushed 3 t = ((cfg0.win 3).blk t).view.read (Elt Ideal) (result m c) := by
  obtain ⟨-, -, -, -, -, -, -, -, -, e0, e1, e2⟩ := idx_facts t
  rw [flushed3]
  funext j
  obtain ⟨u, p, k, rfl⟩ : ∃ (u : Fin 1) (p : Fin 4096) (k : Fin 16), j = ix3 u p k := ⟨j 0, j 1, j 2, eq_ix3 j⟩
  have hu : u.val = 0 := by omega
  show out0_3 (iblk m c 0 t) (iblk m c 1 t) (iblk m c 2 t) (ix3 u p k)
    = result m c (((cfg0.win 3).blk t).view.emb (ix3 u p k))
  have he : ((cfg0.win 3).blk t).view.emb (ix3 u p k) = ix3 (image t) p k := by
    funext a
    apply Fin.ext
    match a with
    | ⟨0, _⟩ => show win0_3.index t (0 : Fin 3) * 1 + 1 * u.val = t.val; omega
    | ⟨1, _⟩ => show win0_3.index t (1 : Fin 3) * 4096 + 1 * p.val = p.val; omega
    | ⟨2, _⟩ => show win0_3.index t (2 : Fin 3) * 16 + 1 * k.val = k.val; omega
  rw [he]
  refine (out_apply _ _ _ u p k).trans ?_
  simp only [image_block m c t, weight_block m c t, bias_block m c t]
  rfl

/-- Every output index lies in the block of its image. -/
theorem cover (c : Dev nD) (i : S64x4096x16.Idx) :
    ∃ t : Fin cfg0.N, (cfg0.win 3).flush t = true ∧ i ∈ ((cfg0.win 3).blk t).view.set := by
  have hi0 : (i 0).val < 64 := (i 0).isLt
  have hi1 : (i 1).val < 4096 := (i 1).isLt
  have hi2 : (i 2).val < 16 := (i 2).isLt
  obtain ⟨t, ht⟩ : ∃ t : Fin cfg0.N, t.val = (i 0).val :=
    ⟨⟨(i 0).val, by rw [show cfg0.N = 64 from N_0]; exact hi0⟩, rfl⟩
  obtain ⟨-, -, -, -, -, -, -, -, -, e0, e1, e2⟩ := idx_facts t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 4096 ≤ (i 1).val ∧ (i 1).val < win0_3.index t (1 : Fin 3) * 4096 + 4096
    omega
  | ⟨2, _⟩ =>
    show win0_3.index t (2 : Fin 3) * 16 ≤ (i 2).val ∧ (i 2).val < win0_3.index t (2 : Fin 3) * 16 + 16
    omega

/-- The output array after the run is the patch sum of the arguments. -/
theorem final (c : Dev nD) : (dats m 0 c).arrAt 3 cfg0.N = result m c :=
  (dats m 0 c).arrAt_eq_of_cover 3 (result m c) (fun t _ => flushed_eq m c t) (cover c)

/-- The kernel's run: the output ends at the patch sum, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end PatchEmbed.Kernel

end
-- ==== Proof.PatchReference.lean ====
/-
  The reference computes the patch embedding. It views the images `[64, 3, 512, 512]` as
  `[64, 3, 64, 8, 64, 8]` (image, channel, patch row, row inside the patch, patch column, column inside the patch),
  moves the two patch coordinates in front of the channel, `[64, 64, 64, 3, 8, 8]`, and flattens to
  `[64, 4096, 192]`: entry `(n, p, c · 64 + a · 8 + b)` is pixel `((p / 64) · 8 + a, (p % 64) · 8 + b)` of channel `c` of
  image `n` (`patch_entry`). Its product with the weights contracts the 192 positions, and the bias is added along
  the last axis. Regrouping the 192 positions by offset and channel, and swapping the two factors of each product, gives
  the patch sum (`reference_eq`): both are laws of any commutative semiring, so no finiteness is used.
-/
import proofs.«108915_j29076928594212_2_alg».proof.Proof.Gen.ReferenceIdeal.Read
import proofs.«108915_j29076928594212_2_alg».proof.Proof.PatchSum
import Idealize.ShloMosaic.Lib.Pipeline.Value
import Idealize.ShloMosaic.Lib.ValueIdx
import Idealize.ShloMosaic.Lib.ValueIdxRank6

noncomputable section

open scoped BigOperators

namespace PatchEmbed.Reference

open Idealize.ShloMosaic Idealize.ShloMosaic.ValueIdx PatchEmbed
open Cert.ReferenceIdeal Cert.ReferenceIdeal.Gen Cert.ReferenceIdeal.Read

/-- The flattened patches: position `c · 64 + a · 8 + b` of patch `p` of image `n` is a pixel of channel `c`. -/
theorem patch_entry (x0 : (⟨S64x3x512x512, .f32⟩ : BufTy).Contents (Elt Ideal)) (n : Fin 64) (p : Fin 4096)
    (c : Fin 3) (a b : Fin 8) :
    val_main_v2 (F := Ideal) x0 (ix3 n p (col c a b)) = x0 (ix4 n c (pix (hi p) a) (pix (lo p) b)) := by
  unfold val_main_v2
  refine (shapeCast_apply _ shapeCasts_S64x64x64x3x8x8_S64x4096x192 (ix3 n p (col c a b))
    (ix6 n (hi p) (lo p) c a b) ?_).trans ?_
  · rw [Shape.rowMajor_val_six, Shape.rowMajor_val_three]
    show ((((n.val * 64 + (hi p).val) * 64 + (lo p).val) * 3 + c.val) * 8 + a.val) * 8 + b.val
      = (n.val * 4096 + p.val) * 192 + (c.val * 64 + a.val * 8 + b.val)
    have := hi_lo p
    omega
  · rw [val_main_v1_apply]
    have e : idx_main_v1 (ix6 n (hi p) (lo p) c a b) = ix6 n c (hi p) a (lo p) b := funext fun ax => Fin.ext (by
      match ax with
      | ⟨0, _⟩ => rfl
      | ⟨1, _⟩ => rfl
      | ⟨2, _⟩ => rfl
      | ⟨3, _⟩ => rfl
      | ⟨4, _⟩ => rfl
      | ⟨5, _⟩ => rfl)
    rw [e]
    unfold val_main_v0
    refine shapeCast_apply _ shapeCasts_S64x3x512x512_S64x3x64x8x64x8 _ (ix4 n c (pix (hi p) a) (pix (lo p) b)) ?_
    rw [Shape.rowMajor_val_four, Shape.rowMajor_val_six]
    show ((n.val * 3 + c.val) * 512 + ((hi p).val * 8 + a.val)) * 512 + ((lo p).val * 8 + b.val)
      = ((((n.val * 3 + c.val) * 64 + (hi p).val) * 8 + a.val) * 64 + (lo p).val) * 8 + b.val
    omega

/-- The reference's result is the patch sum of its arguments. -/
theorem reference_eq (x0 : (⟨S64x3x512x512, .f32⟩ : BufTy).Contents (Elt Ideal))
    (x1 : (⟨S16x192, .f32⟩ : BufTy).Contents (Elt Ideal)) (x2 : (⟨S16, .f32⟩ : BufTy).Contents (Elt Ideal)) :
    val_main_v6 (F := Ideal) x0 x1 x2 = embed x0 x1 x2 := by
  funext i
  obtain ⟨n, p, k, rfl⟩ : ∃ (n : Fin 64) (p : Fin 4096) (k : Fin 16), i = ix3 n p k := ⟨i 0, i 1, i 2, eq_ix3 i⟩
  have el : ∀ d : Fin 192, lidx_main_v3 (ix3 n p k) d = ix3 n p d := fun d => funext fun ax => Fin.ext (by
    match ax with
    | ⟨0, _⟩ => rfl
    | ⟨1, _⟩ => rfl
    | ⟨2, _⟩ => rfl)
  have er : ∀ d : Fin 192, ridx_main_v3 (ix3 n p k) d = ix2 k d := fun d => funext fun ax => Fin.ext (by
    match ax with
    | ⟨0, _⟩ => rfl
    | ⟨1, _⟩ => rfl)
  have eb : idx_main_v4 (idx_main_v5 (ix3 n p k)) = ix1 k := funext fun ax => Fin.ext (by
    match ax with
    | ⟨0, _⟩ => rfl)
  rw [val_main_v6_apply, val_main_v3_apply, val_main_v5_apply, val_main_v4_apply, eb, embed_apply]
  simp only [el, er]
  show (∑ d : Fin 192, val_main_v2 (F := Ideal) x0 (ix3 n p d) * x1 (ix2 k d)) + x2 (ix1 k) = embedAt x0 x1 x2 n p k
  unfold embedAt term
  rw [sum_cols]
  refine congrArg (· + x2 (ix1 k)) (Finset.sum_congr rfl fun a _ => Finset.sum_congr rfl fun b _ =>
    Finset.sum_congr rfl fun c _ => ?_)
  rw [patch_entry, mul_comm]

end PatchEmbed.Reference

end
-- ==== Proof.lean ====
/- The proof of `Cert.Claim` (proofs.«108915_j29076928594212_2_alg».proof.Defs): a patch embedding. Each of 64 images
   of 3 channels and 512 × 512 pixels is cut into 64 × 64 patches of 8 × 8 pixels; a patch, flattened channel first to
   192 numbers, is multiplied by a `[16, 192]` weight matrix and a bias is added.

   The kernel handles one image per grid point: it views the image by patches, and for each of the 64 offsets `(a, b)`
   inside a patch multiplies the `[16, 3]` weights at that offset by the `[3, 4096]` pixels at that offset of all patches,
   adding the 64 products one after the other onto zero; then it transposes and adds the bias. The reference builds the
   `[64, 4096, 192]` array of flattened patches by a reshape, a transpose and a reshape, and contracts it with the
   weights. On the extended reals both are, at image `n`, patch `p` and feature `k`, the sum over the offsets and the
   channels of weight `(k, c · 64 + a · 8 + b)` times pixel `((p / 64) · 8 + a, (p % 64) · 8 + b)` of channel `c`, plus the
   bias at `k` (Proof/PatchSum.lean `embed`): the two differ by the grouping and order of a finite sum and the order of
   the two factors of each product, laws that hold for every extended real, so the precondition is never opened.

   Proof/PatchLayout.lean reads the kernel's re-layings at an index, Proof/PatchStep.lean one step of the accumulation,
   Proof/PatchStepsA.lean and PatchStepsB.lean the body's stretches, Proof/PatchBlock.lean the block one grid point
   computes, Proof/PatchArray.lean the output array after the run; Proof/PatchReference.lean the reference. The three
   frames are the generated ones; the idealization rewrote nothing, so `preserves` is `True`. -/
import proofs.«108915_j29076928594212_2_alg».proof.Defs
import proofs.«108915_j29076928594212_2_alg».proof.Proof.Gen.Kernel
import proofs.«108915_j29076928594212_2_alg».proof.Proof.Gen.Kernel.Skeleton
import proofs.«108915_j29076928594212_2_alg».proof.Proof.Gen.Kernel.Launch
import proofs.«108915_j29076928594212_2_alg».proof.Proof.Gen.Kernel.Points
import proofs.«108915_j29076928594212_2_alg».proof.Proof.Gen.Kernel.Frame
import proofs.«108915_j29076928594212_2_alg».proof.Proof.Gen.KernelIdeal
import proofs.«108915_j29076928594212_2_alg».proof.Proof.Gen.KernelIdeal.Skeleton
import proofs.«108915_j29076928594212_2_alg».proof.Proof.Gen.KernelIdeal.Launch
import proofs.«108915_j29076928594212_2_alg».proof.Proof.Gen.KernelIdeal.Points
import proofs.«108915_j29076928594212_2_alg».proof.Proof.Gen.KernelIdeal.Frame
import proofs.«108915_j29076928594212_2_alg».proof.Proof.Gen.ReferenceIdeal
import proofs.«108915_j29076928594212_2_alg».proof.Proof.Gen.KernelIdeal.Value
import proofs.«108915_j29076928594212_2_alg».proof.Proof.Gen.ReferenceIdeal.Run
import proofs.«108915_j29076928594212_2_alg».proof.Proof.Gen.ReferenceIdeal.Read
import proofs.«108915_j29076928594212_2_alg».proof.Proof.Gen.Pre_finite_inputs
import proofs.«108915_j29076928594212_2_alg».proof.Proof.PatchArray
import proofs.«108915_j29076928594212_2_alg».proof.Proof.PatchReference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the output at the patch sum of the arguments, which agree. -/
theorem algebraic : Cert.algebraic_KernelIdeal_ReferenceIdeal := by
  intro m ρ m' ρ' _ hagree
  refine ⟨_, PatchEmbed.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v6_eq _ _ _).trans (PatchEmbed.Reference.reference_eq _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
